-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x256 .f32) (main_arg1 : FVec F S8x2048x2048 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x256 : Shape := ⟨3, ![8, 2048, 256]⟩
abbrev S8x2048x2048 : Shape := ⟨3, ![8, 2048, 2048]⟩
abbrev S1x2048x256 : Shape := ⟨3, ![1, 2048, 256]⟩
abbrev S1x256x2048 : Shape := ⟨3, ![1, 256, 2048]⟩
abbrev S1x256x256 : Shape := ⟨3, ![1, 256, 256]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S1x256x256 : 0 < S1x256x256.numel
  shapeCasts_S1x256x256_S256x256 : S1x256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  transposes_S2048x256_p1_0_S256x2048 : S2048x256.Transposes [1, 0] S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  dot_S256x256_S256x2048_S256x2048_1_0_0_1_n_n_wf : DotDims.WF S256x256 S256x2048 S256x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048 : S_.BroadcastsInDim S8x2048 (![] : Fin 0 → Fin S8x2048.rank)
  dot_S8x2048x256_S8x2048x256_S8x2048x2048_2_2_1_1_0_0_wf : DotDims.WF S8x2048x256 S8x2048x256 S8x2048x2048 [2] [2] [1] [1] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.Attention.lean ====
/-
  The attention weights both programs compute, as one function on the extended reals.

  For batch `b` and query row `r` the energies are the inner products e_j = Σ_d h[b,r,d] · h[b,j,d] against every
  key row `j`.  With M = max_j e_j, the masked logits are s_j = (M − e_j) · adj[b,r,j]; with m = max_j s_j the
  weights are exp (s_j − m) / Σ_k exp (s_k − m).  Both maxima are folded from −∞, the quotient is the extended
  reals' division, and nothing here needs the entries to be finite: the two programs apply the same operations
  in the same order, so the function is stated once and each program is shown to compute it.
-/
import proofs.«109564_j50732153700397_2_alg».proof.Proof.LibRowReduce

noncomputable section

namespace Attention

open Idealize.ShloMosaic Idealize.ShloMosaic.ValueIdx RowReduce

/-- −∞, as the f32 word both programs start their maxima from. -/
abbrev negInf : EReal := Ideal.ofBits .f32 0xFF800000#32

/-- One row of weights from the row's energies `e` and its row `a` of the mask. -/
def weights {n : Nat} (e a : Fin n → EReal) (j : Fin n) : EReal :=
  Ideal.div
    (Ideal.exp ((foldMax negInf e - e j) * a j - foldMax negInf fun k => (foldMax negInf e - e k) * a k))
    (∑ l : Fin n, Ideal.exp ((foldMax negInf e - e l) * a l - foldMax negInf fun k => (foldMax negInf e - e k) * a k))

/-- The energy of query row `r` against key row `j` in batch `b`. -/
def energy (h : (⟨3, ![8, 2048, 256]⟩ : Shape).Idx → EReal) (b : Fin 8) (r j : Fin 2048) : EReal :=
  ∑ d : Fin 256, h (ix3 b r d) * h (ix3 b j d)

/-- The whole array of weights. -/
def attention (h : (⟨3, ![8, 2048, 256]⟩ : Shape).Idx → EReal) (adj : (⟨3, ![8, 2048, 2048]⟩ : Shape).Idx → EReal) :
    (⟨3, ![8, 2048, 2048]⟩ : Shape).Idx → EReal :=
  fun i => weights (fun j : Fin 2048 => energy h (i 0) (i 1) j) (fun j : Fin 2048 => adj (ix3 (i 0) (i 1) j)) (i 2)

theorem attention_apply (h : (⟨3, ![8, 2048, 256]⟩ : Shape).Idx → EReal) (adj : (⟨3, ![8, 2048, 2048]⟩ : Shape).Idx → EReal)
    (b : Fin 8) (r j : Fin 2048) :
    attention h adj (ix3 b r j) = weights (fun k : Fin 2048 => energy h b r k) (fun k : Fin 2048 => adj (ix3 b r k)) j := rfl

end Attention

end
-- ==== Proof.BodyValue.lean ====
/-
  What the kernel body stores, read at an index.

  At a grid point the body holds a query block q = h[b, 256·i .. 256·i+255, :] (as [1, 256, 256]), the whole key
  matrix k = h[b] (as [1, 2048, 256]) and the mask block adj[b, 256·i .. , :] (as [1, 256, 2048]).  Its matrix
  product q · kᵀ into a zero accumulator is, at (p, j), the inner product of query row p with key row j; the rest
  of the body — row maximum, subtraction, mask, row maximum again, exponential, row sum, quotient — is the row
  function `Attention.weights` of row p of these energies and row p of the mask block.
-/
import proofs.«109564_j50732153700397_2_alg».proof.Proof.Gen.KernelIdeal.Skeleton
import proofs.«109564_j50732153700397_2_alg».proof.Proof.Attention
import Idealize.ShloMosaic.Lib.ValueLayout

noncomputable section

namespace Cert.KernelIdeal.BodyValue

open Cert.KernelIdeal Cert.KernelIdeal.Gen
open Idealize.ShloMosaic Idealize.ShloMosaic.ValueIdx RowReduce Attention

/-! ## The matrix product -/

/-- The left operand's index keeps the output's row; -/
theorem lhs_row (i : S256x2048.Idx) (q : dot_S256x256_S256x2048_S256x2048_1_0_0_1_n_n.contr.Idx) : (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide),
    dif_pos (show (0 : Fin S256x256.rank) ∈ dot_S256x256_S256x2048_S256x2048_1_0_0_1_n_n.lhsNonContracting by decide)]
  rfl

/-- the right operand's index keeps the output's column. -/
theorem rhs_col (i : S256x2048.Idx) (q : dot_S256x256_S256x2048_S256x2048_1_0_0_1_n_n.contr.Idx) : (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide),
    dif_pos (show (1 : Fin S256x2048.rank) ∈ dot_S256x256_S256x2048_S256x2048_1_0_0_1_n_n.rhsNonContracting by decide)]
  rfl

/-- The product of a [256, 256] block with a [256, 2048] block into the zero accumulator, at (p, j): the sum
    over the contracted coordinate of the products. -/
theorem product_at (q : FVec Ideal S256x256 .f32) (kT : FVec Ideal S256x2048 .f32) (p : Fin 256) (j : Fin 2048) :
    matmul (F := Ideal) dot_S256x256_S256x2048_S256x2048_1_0_0_1_n_n (some .fp32) q kT (constant (F := Ideal) S256x2048 .f32 0x00000000#32) (ix2 p j)
      = ∑ d : Fin 256, q (ix2 p d) * kT (ix2 d j) := by
  show FloatOps.matmul dot_S256x256_S256x2048_S256x2048_1_0_0_1_n_n (some .fp32) q kT (constant (F := Ideal) S256x2048 .f32 0x00000000#32) (ix2 p j) = _
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 p j) ((contrEquiv1 dot_S256x256_S256x2048_S256x2048_1_0_0_1_n_n 256 rfl rfl).symm k) = ix2 p k :=
    funext fun a => Fin.ext (by
      match a with
      | ⟨0, _⟩ => exact lhs_row _ _
      | ⟨1, _⟩ => exact (dot_S256x256_S256x2048_S256x2048_1_0_0_1_n_n.lhsIdx_val_of_single rfl _ _).trans hk)
  have er : dot_S256x256_S256x2048_S256x2048_1_0_0_1_n_n.rhsIdx (ix2 p j) ((contrEquiv1 dot_S256x256_S256x2048_S256x2048_1_0_0_1_n_n 256 rfl rfl).symm k) = ix2 k j :=
    funext fun a => Fin.ext (by
      match a with
      | ⟨0, _⟩ => exact (dot_S256x256_S256x2048_S256x2048_1_0_0_1_n_n.rhsIdx_val_of_single rfl _ _).trans hk
      | ⟨1, _⟩ => exact rhs_col _ _)
  rw [el, er]

/-! ## From the energies to the weights, row by row -/

/-- Each row's largest energy. -/
def rowTop (E : FVec Ideal S256x2048 .f32) : FVec Ideal S256 .f32 :=
  multiReduction .maximumf [1] S256 E 0xFF800000#32 reduces_S256x2048_S256 (.inl rfl) rfl

/-- The masked logits (M − e) · adj. -/
def logits (E A : FVec Ideal S256x2048 .f32) : FVec Ideal S256x2048 .f32 :=
  mulf (subf (broadcastTo S256x2048 (shapeCast S256x1 (rowTop E) shapeCasts_S256_S256x1) broadcasts_S256x1_S256x2048) E) A

/-- Each row's largest masked logit. -/
def logitTop (E A : FVec Ideal S256x2048 .f32) : FVec Ideal S256 .f32 :=
  multiReduction .maximumf [1] S256 (logits E A) 0xFF800000#32 reduces_S256x2048_S256 (.inl rfl) rfl

/-- The unnormalised weights exp (s − m). -/
def unnorm (E A : FVec Ideal S256x2048 .f32) : FVec Ideal S256x2048 .f32 :=
  exp (subf (logits E A)
    (broadcastTo S256x2048 (shapeCast S256x1 (logitTop E A) shapeCasts_S256_S256x1) broadcasts_S256x1_S256x2048))

/-- Each row's normaliser. -/
def rowSum (E A : FVec Ideal S256x2048 .f32) : FVec Ideal S256 .f32 :=
  multiReduction .add [1] S256 (unnorm E A) 0x00000000#32 reduces_S256x2048_S256 (.inl rfl) rfl

/-- What the body stores, from the energies `E` and the mask block `A`. -/
def stored (E A : FVec Ideal S256x2048 .f32) : FVec Ideal S1x256x2048 .f32 :=
  shapeCast S1x256x2048
    (divf (unnorm E A)
      (broadcastTo S256x2048 (shapeCast S256x1 (rowSum E A) shapeCasts_S256_S256x1) broadcasts_S256x1_S256x2048))
    shapeCasts_S256x2048_S1x256x2048

variable (E A : FVec Ideal S256x2048 .f32)

/-- The exponential of a vector, at an index. -/
theorem exp_at {s : Shape} {φ : FTy} (x : FVec Ideal s φ) (i : s.Idx) : exp x i = Ideal.exp (x i) := rfl

theorem rowTop_at (p : Fin 256) : rowTop E (ix1 p) = foldMax negInf fun k : Fin 2048 => E (ix2 p k) :=
  multiReduction_max_row E 0xFF800000#32 reduces_S256x2048_S256 (.inl rfl) rfl p

theorem logits_at (p : Fin 256) (j : Fin 2048) :
    logits E A (ix2 p j) = ((foldMax negInf fun k : Fin 2048 => E (ix2 p k)) - E (ix2 p j)) * A (ix2 p j) := by
  unfold logits
  rw [mulf_apply, subf_apply, column_broadcast_apply (rowTop E) shapeCasts_S256_S256x1 broadcasts_S256x1_S256x2048 p j,
    rowTop_at]

theorem logitTop_at (p : Fin 256) :
    logitTop E A (ix1 p)
      = foldMax negInf fun k : Fin 2048 => ((foldMax negInf fun l : Fin 2048 => E (ix2 p l)) - E (ix2 p k)) * A (ix2 p k) := by
  refine (multiReduction_max_row (logits E A) 0xFF800000#32 reduces_S256x2048_S256 (.inl rfl) rfl p).trans ?_
  exact congrArg (foldMax negInf) (funext fun k => logits_at E A p k)

theorem unnorm_at (p : Fin 256) (j : Fin 2048) :
    unnorm E A (ix2 p j)
      = Ideal.exp (((foldMax negInf fun k : Fin 2048 => E (ix2 p k)) - E (ix2 p j)) * A (ix2 p j)
          - foldMax negInf fun k : Fin 2048 => ((foldMax negInf fun l : Fin 2048 => E (ix2 p l)) - E (ix2 p k)) * A (ix2 p k)) := by
  unfold unnorm
  rw [exp_at, subf_apply, column_broadcast_apply (logitTop E A) shapeCasts_S256_S256x1 broadcasts_S256x1_S256x2048 p j,
    logits_at, logitTop_at]

theorem rowSum_at (p : Fin 256) :
    rowSum E A (ix1 p) = ∑ l : Fin 2048, unnorm E A (ix2 p l) :=
  multiReduction_add_row (unnorm E A) 0x00000000#32 reduces_S256x2048_S256 (.inl rfl) rfl p

/-- The stored block at (0, p, j) is the weight of column j in row p. -/
theorem stored_at (p : Fin 256) (j : Fin 2048) :
    stored E A (ix3 (0 : Fin 1) p j) = weights (fun k : Fin 2048 => E (ix2 p k)) (fun k : Fin 2048 => A (ix2 p k)) j := by
  unfold stored
  rw [shapeCast_ab_1ab_apply, divf_apply,
    column_broadcast_apply (rowSum E A) shapeCasts_S256_S256x1 broadcasts_S256x1_S256x2048 p j, rowSum_at, unnorm_at]
  unfold weights
  exact congrArg (Ideal.div _) (Finset.sum_congr rfl fun l _ => unnorm_at E A p l)

/-! ## The payload -/

/-- The body's stored value at (0, p, j), from its three loads: the weights of row p, whose energies are the
    inner products of row p of the query block with the rows of the key block. -/
theorem payload_at (v3 : FVec Ideal S1x256x256 .f32) (v5 : FVec Ideal S1x2048x256 .f32) (v7 : FVec Ideal S1x256x2048 .f32)
    (p : Fin 256) (j : Fin 2048) :
    k0_pay1 (F := Ideal) v3 v5 v7 (ix3 (0 : Fin 1) p j)
      = weights (fun k : Fin 2048 => ∑ d : Fin 256, v3 (ix3 (0 : Fin 1) p d) * v5 (ix3 (0 : Fin 1) k d))
          (fun k : Fin 2048 => v7 (ix3 (0 : Fin 1) p k)) j := by
  have e : k0_pay1 (F := Ideal) v3 v5 v7
      = stored
          (matmul (F := Ideal) dot_S256x256_S256x2048_S256x2048_1_0_0_1_n_n (some .fp32) (shapeCast S256x256 v3 shapeCasts_S1x256x256_S256x256)
            (transpose S256x2048 [1, 0] (shapeCast S2048x256 v5 shapeCasts_S1x2048x256_S2048x256) transposes_S2048x256_p1_0_S256x2048)
            (constant (F := Ideal) S256x2048 .f32 0x00000000#32))
          (shapeCast S256x2048 v7 shapeCasts_S1x256x2048_S256x2048) := rfl
  refine (congrFun e _).trans ((stored_at _ _ p j).trans ?_)
  have hE : ∀ k : Fin 2048,
      matmul (F := Ideal) dot_S256x256_S256x2048_S256x2048_1_0_0_1_n_n (some .fp32) (shapeCast S256x256 v3 shapeCasts_S1x256x256_S256x256)
        (transpose S256x2048 [1, 0] (shapeCast S2048x256 v5 shapeCasts_S1x2048x256_S2048x256) transposes_S2048x256_p1_0_S256x2048)
        (constant (F := Ideal) S256x2048 .f32 0x00000000#32) (ix2 p k)
      = ∑ d : Fin 256, v3 (ix3 (0 : Fin 1) p d) * v5 (ix3 (0 : Fin 1) k d) := fun k => by
    rw [product_at]
    refine Finset.sum_congr rfl fun d _ => ?_
    rw [shapeCast_1ab_ab_apply, transpose_ix2_apply, shapeCast_1ab_ab_apply]
  have hA : ∀ k : Fin 2048, shapeCast S256x2048 v7 shapeCasts_S1x256x2048_S256x2048 (ix2 p k) = v7 (ix3 (0 : Fin 1) p k) :=
    fun k => shapeCast_1ab_ab_apply v7 _ p k
  rw [funext hE, funext hA]

end Cert.KernelIdeal.BodyValue

end
-- ==== Proof.BlockValue.lean ====
/-
  From the body's stored block to the whole result array.

  The grid has 8 × 8 points (batch b, row tile i).  At point (b, i) the key window holds h[b] whole, the mask
  and output windows hold rows 256·i … 256·i + 255 of adj[b] and of the result, and the body slices its query
  block out of the key window at row offset 256·i.  So the block the point writes back is the attention weights
  restricted to the output block, and since the 64 output blocks tile the result array, the array ends holding
  the attention weights of the two argument arrays.
-/
import proofs.«109564_j50732153700397_2_alg».proof.Proof.Gen.KernelIdeal.Value
import proofs.«109564_j50732153700397_2_alg».proof.Proof.BodyValue
import Idealize.ShloMosaic.Lib.Tactic

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Cert.KernelIdeal.BodyValue
open Idealize.ShloMosaic.ValueIdx Attention

theorem hz : (![0, 0, 0] : Fin 3 → Nat) = fun _ => 0 := funext fun a => by fin_cases a <;> rfl

/-! ## What the body leaves in the output's staging buffer -/

/-- The body's one store covers the output block, so the buffer ends at the store's payload: the body's
    arithmetic of the query rows sliced out of the key block, the key block and the mask block. -/
theorem out_eq {F : FTy → Type} [FloatOps F] (c : Dev nD) (i : grid0.Coords)
    (arg2 : Memref sig .tc .vmem S1x2048x256 .f32) (harg2 : arg2.IsWhole)
    (arg3 : Memref sig .tc .vmem S1x256x2048 .f32) (harg3 : arg3.IsWhole)
    (arg4 : Memref sig .tc .vmem S1x256x2048 .f32) (harg4 : arg4.IsWhole)
    (x0 : Vec F S1x2048x256 .f32) (x1 : Vec F S1x256x2048 .f32) :
    out0_A_2 c i arg2 harg2 arg3 harg3 arg4 harg4 x0 x1 = k0_pay1 (View.ld x0 (Rect.unit (s := S1x2048x256) (k0_off1 i) S1x256x256.size (k0_off1_inb i))) x0 x1 := by
  unfold out0_A_2
  rw [View.read_writes_eq_canon _ _ _ (cover0_A_2 c i arg2 harg2 arg3 harg3 arg4 harg4 x0 x1)]
  unfold kernelRun0_A
  dsimp only
  rw [View.canon_unit_zero hz]
  simp only [View.readAt_eq_ld, harg2.read_unread, harg3.read_unread, View.ld_unit_zero (S := S1x2048x256) hz,
    View.ld_unit_zero (S := S1x256x2048) hz]

/-- Row p of the query block is row 256·i + p of the key block. -/
theorem query_at (x0 : Vec Ideal S1x2048x256 .f32) (i : grid0.Coords) (p d : Fin 256) (r : Fin 2048)
    (hr : r.val = 256 * (i 1).val + p.val) :
    (View.ld x0 (Rect.unit (s := S1x2048x256) (k0_off1 i) S1x256x256.size (k0_off1_inb i))) (ix3 (0 : Fin 1) p d) = x0 (ix3 (0 : Fin 1) r d) := by
  show x0 ((Rect.unit (s := S1x2048x256) (k0_off1 i) S1x256x256.size (k0_off1_inb i)).emb (ix3 (0 : Fin 1) p d)) = _
  refine congrArg x0 (funext fun a => Fin.ext ?_)
  rw [Rect.emb_apply]
  have e := k0_off1_eq i
  match a with
  | ⟨0, _⟩ => show k0_off1 i 0 + 1 * 0 = 0; rw [e]; rfl
  | ⟨1, _⟩ => show k0_off1 i 1 + 1 * p.val = r.val; rw [e, hr]; show 256 * (i 1).val + 1 * p.val = _; omega
  | ⟨2, _⟩ => show k0_off1 i 2 + 1 * d.val = d.val; rw [e]; show 0 + 1 * d.val = d.val; omega

/-! ## One point's block, index by index -/

/-- At a point of row tile `i` whose key block is h[b] and whose mask block is rows 256·i … of adj[b], the
    stored value at a block index y is the attention weight at the array index the block puts y at. -/
theorem point_value (h : S8x2048x256.Idx → EReal) (adj : S8x2048x2048.Idx → EReal) (i : grid0.Coords)
    (x0 : Vec Ideal S1x2048x256 .f32) (x1 : Vec Ideal S1x256x2048 .f32) (b : Fin 8)
    (hx0 : ∀ (k : Fin 2048) (d : Fin 256), x0 (ix3 (0 : Fin 1) k d) = h (ix3 b k d))
    (hx1 : ∀ (p : Fin 256) (k r : Fin 2048), r.val = 256 * (i 1).val + p.val → x1 (ix3 (0 : Fin 1) p k) = adj (ix3 b r k))
    (y : S1x256x2048.Idx) (g : S8x2048x2048.Idx)
    (hg0 : (g 0).val = b.val) (hg1 : (g 1).val = 256 * (i 1).val + (y 1).val) (hg2 : (g 2).val = (y 2).val) :
    k0_pay1 (F := Ideal) (View.ld x0 (Rect.unit (s := S1x2048x256) (k0_off1 i) S1x256x256.size (k0_off1_inb i))) x0 x1 y = attention h adj g := by
  obtain ⟨u, p, j, rfl⟩ : ∃ (u : Fin 1) (p : Fin 256) (j : Fin 2048), y = ix3 u p j := ⟨y 0, y 1, y 2, eq_ix3 y⟩
  obtain rfl : u = 0 := Subsingleton.elim _ _
  obtain ⟨b', r, j', rfl⟩ : ∃ (b' : Fin 8) (r j' : Fin 2048), g = ix3 b' r j' := ⟨g 0, g 1, g 2, eq_ix3 g⟩
  obtain rfl : b' = b := Fin.ext hg0
  obtain rfl : j' = j := Fin.ext hg2
  have hr : r.val = 256 * (i 1).val + p.val := hg1
  rw [payload_at, attention_apply]
  unfold energy
  have hE : (fun k : Fin 2048 => ∑ d : Fin 256, (View.ld x0 (Rect.unit (s := S1x2048x256) (k0_off1 i) S1x256x256.size (k0_off1_inb i))) (ix3 (0 : Fin 1) p d) * x0 (ix3 (0 : Fin 1) k d))
      = fun k : Fin 2048 => ∑ d : Fin 256, h (ix3 b' r d) * h (ix3 b' k d) :=
    funext fun k => Finset.sum_congr rfl fun d _ => by rw [query_at x0 i p d r hr, hx0, hx0]
  have hA : (fun k : Fin 2048 => x1 (ix3 (0 : Fin 1) p k)) = fun k : Fin 2048 => adj (ix3 b' r k) :=
    funext fun k => hx1 p k r hr
  rw [hE, hA]

/-! ## The index maps over the grid -/

/-- The three windows move together: the key window's block index is (b, 0, 0), the mask and output windows'
    (b, i, 0), and the body's row-tile coordinate is i. -/
theorem grid_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (2 : Fin 3) = 0 ∧ win0_2.index t (0 : Fin 3) < 8 ∧ win0_2.index t (1 : Fin 3) < 8
    ∧ (grid0.coords t 1).val = win0_2.index t (1 : Fin 3) :=
  (by decide +kernel : ∀ t : Fin grid0.N, _)

/-- Every (batch, row tile) pair is some point's output block. -/
theorem grid_onto : ∀ (q0 q1 : Fin 8), ∃ t : Fin cfg0.N,
    win0_2.index t (0 : Fin 3) = q0.val ∧ win0_2.index t (1 : Fin 3) = q1.val :=
  (by decide +kernel : ∀ (q0 q1 : Fin 8), ∃ t : Fin grid0.N, win0_2.index t (0 : Fin 3) = q0.val ∧ win0_2.index t (1 : Fin 3) = q1.val)

variable (m : (ℓ : Loc nD τ sig) → Buf (Elt Ideal) ℓ) (ρ : Dev nD → PrngReg)

/-! ## What a point writes back, and the array after the run -/

/-- What point `t` writes back is block `t` of the attention weights of the argument arrays. -/
theorem flushed_eq (c : Dev nD) (t : Fin cfg0.N) :
    (dats m 0 c).flushed 2 t
      = ((cfg0.win 2).blk t).view.read (Elt Ideal) (attention (V m c main_arg0) (V m c main_arg1)) := by
  rw [Cert.KernelIdeal.Value.flushed2_A, out_eq]
  obtain ⟨e00, e01, e02, e10, e11, e12, e22, l0, l1, ec⟩ := grid_facts t
  funext y
  show k0_pay1 (F := Ideal)
      (View.ld (iblk m c 0 t) (Rect.unit (s := S1x2048x256) (k0_off1 (grid0.coords t)) S1x256x256.size (k0_off1_inb (grid0.coords t))))
      (iblk m c 0 t) (iblk m c 1 t) y
    = attention (V m c main_arg0) (V m c main_arg1) (((cfg0.win 2).blk t).view.emb y)
  refine point_value (V m c main_arg0) (V m c main_arg1) (grid0.coords t) (iblk m c 0 t) (iblk m c 1 t)
    ⟨win0_2.index t (0 : Fin 3), l0⟩ ?_ ?_ y (((cfg0.win 2).blk t).view.emb y) ?_ ?_ ?_
  · intro k d
    show V m c main_arg0 (((cfg0.win 0).blk t).view.emb (ix3 (0 : Fin 1) k d)) = V m c main_arg0 (ix3 _ k d)
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 2048 + 1 * k.val = k.val; omega
    | ⟨2, _⟩ => show win0_0.index t (2 : Fin 3) * 256 + 1 * d.val = d.val; omega
  · intro p k r hr
    show V m c main_arg1 (((cfg0.win 1).blk t).view.emb (ix3 (0 : Fin 1) p k)) = V m c main_arg1 (ix3 _ r k)
    refine congrArg (V m c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 256 + 1 * p.val = r.val; rw [hr, ec]; omega
    | ⟨2, _⟩ => show win0_1.index t (2 : Fin 3) * 2048 + 1 * k.val = k.val; omega
  · show win0_2.index t (0 : Fin 3) * 1 + 1 * (y 0).val = win0_2.index t (0 : Fin 3)
    have h0 : (y 0).val < 1 := (y 0).isLt
    omega
  · show win0_2.index t (1 : Fin 3) * 256 + 1 * (y 1).val = 256 * (grid0.coords t 1).val + (y 1).val
    rw [ec]; omega
  · show win0_2.index t (2 : Fin 3) * 2048 + 1 * (y 2).val = (y 2).val
    omega

/-- An index of the result array is in point `t`'s block iff each coordinate is in the block's range. -/
theorem mem_blk (t : Fin cfg0.N) (i : S8x2048x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v0).slice (win0_2.rect t)).set ↔ _
  rw [View.set_slice_whole, Rect.mem_set_unit]
  exact Iff.rfl

/-- The output blocks tile the result array: index (b, r, j) is in the block of batch b, row tile r / 256. -/
theorem cover (i : S8x2048x2048.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 2048 := (i 2).isLt
  obtain ⟨t, q0, q1⟩ := grid_onto ⟨(i 0).val, h0⟩ ⟨(i 1).val / 256, by omega⟩
  have q0' : win0_2.index t (0 : Fin 3) = (i 0).val := q0
  have q1' : win0_2.index t (1 : Fin 3) = (i 1).val / 256 := q1
  obtain ⟨-, -, -, -, -, -, e22, -, -, -⟩ := grid_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 2048 ≤ (i 2).val ∧ (i 2).val < win0_2.index t (2 : Fin 3) * 2048 + 2048
    omega

/-- The result array after the run is the attention weights of the two argument arrays. -/
theorem final (c : Dev nD) :
    (dats m 0 c).arrAt 2 cfg0.N
      = attention (m ((c : Thread nD τ).loc main_arg0)) (m ((c : Thread nD τ).loc main_arg1)) :=
  (dats m 0 c).arrAt_eq_of_cover 2 (attention (V m c main_arg0) (V m c main_arg1)) (fun t _ => flushed_eq m c t) cover

/-- The kernel's run, read: the result array at the attention weights, the arguments unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.BlockValue

end
-- ==== Proof.RefAttention.lean ====
/-
  The reference program computes the attention weights.

  Its stages, read at an index (b, r, j): the batched inner products are the energies of row (b, r); their
  maximum over j, broadcast back, is M; (M − e_j) · adj is the masked logit s_j; the maximum of the s_j, taken
  once more against −∞ (which changes nothing), is m; exp (s_j − m), its sum over j started from the zero word,
  and the quotient are the weights.
-/
import proofs.«109564_j50732153700397_2_alg».proof.Proof.Gen.ReferenceIdeal.Read
import proofs.«109564_j50732153700397_2_alg».proof.Proof.Attention

noncomputable section

namespace Cert.ReferenceIdeal.RefValue

open Cert.ReferenceIdeal Cert.ReferenceIdeal.Gen Cert.ReferenceIdeal.Read
open Idealize.ShloMosaic Idealize.ShloMosaic.ValueIdx RowReduce Attention

variable (x0 : (⟨S8x2048x256, .f32⟩ : BufTy).Contents (Elt Ideal)) (x1 : (⟨S8x2048x2048, .f32⟩ : BufTy).Contents (Elt Ideal))

/-- The batched product at (b, r, j) is the energy of query row r against key row j. -/
theorem v0_at (b : Fin 8) (r j : Fin 2048) : val_main_v0 (F := Ideal) x0 (ix3 b r j) = energy x0 b r j := by
  rw [val_main_v0_apply]
  unfold energy
  refine Finset.sum_congr rfl fun k _ => ?_
  have el : lidx_main_v0 (ix3 b r j) k = ix3 b r k :=
    funext fun a => Fin.ext (by match a with | ⟨0, _⟩ => rfl | ⟨1, _⟩ => rfl | ⟨2, _⟩ => rfl)
  have er : ridx_main_v0 (ix3 b r j) k = ix3 b j k :=
    funext fun a => Fin.ext (by match a with | ⟨0, _⟩ => rfl | ⟨1, _⟩ => rfl | ⟨2, _⟩ => rfl)
  rw [el, er]

/-- The first reduction at (b, r) is the largest energy of the row. -/
theorem v1_at (b : Fin 8) (r : Fin 2048) :
    val_main_v1 (F := Ideal) x0 (ix2 b r) = foldMax negInf fun j => energy x0 b r j := by
  unfold val_main_v1
  refine (hostReduce_max_row (val_main_v0 (F := Ideal) x0) (val_main_cst (F := Ideal)) reducesTo_S8x2048x2048_S8x2048_d2
    (by decide) h_S_ b r).trans ?_
  show foldMax negInf _ = _
  exact congrArg (foldMax negInf) (funext fun k => v0_at x0 b r k)

/-- Broadcast back along the row it is the same number at every j. -/
theorem v3_at (b : Fin 8) (r j : Fin 2048) :
    val_main_v3 (F := Ideal) x0 (ix3 b r j) = foldMax negInf fun k => energy x0 b r k := by
  rw [val_main_v3_apply, val_main_v2_apply]
  have e : idx_main_v2 (idx_main_v3 (ix3 b r j)) = ix2 b r :=
    funext fun a => Fin.ext (by match a with | ⟨0, _⟩ => rfl | ⟨1, _⟩ => rfl)
  rw [e, v1_at]

/-- The masked logit s_j = (M − e_j) · adj. -/
theorem v5_at (b : Fin 8) (r j : Fin 2048) :
    val_main_v5 (F := Ideal) x0 x1 (ix3 b r j)
      = ((foldMax negInf fun k => energy x0 b r k) - energy x0 b r j) * x1 (ix3 b r j) := by
  rw [val_main_v5_apply, val_main_v4_apply, v3_at, v0_at]
  rfl

/-- The second reduction at (b, r) is the largest masked logit of the row; -/
theorem v6_at (b : Fin 8) (r : Fin 2048) :
    val_main_v6 (F := Ideal) x0 x1 (ix2 b r)
      = foldMax negInf fun k => ((foldMax negInf fun l => energy x0 b r l) - energy x0 b r k) * x1 (ix3 b r k) := by
  unfold val_main_v6
  refine (hostReduce_max_row (val_main_v5 (F := Ideal) x0 x1) (val_main_cst_0 (F := Ideal)) reducesTo_S8x2048x2048_S8x2048_d2
    (by decide) h_S_ b r).trans ?_
  show foldMax negInf _ = _
  exact congrArg (foldMax negInf) (funext fun k => v5_at x0 x1 b r k)

/-- taking it once more against −∞ changes nothing. -/
theorem v8_at (b : Fin 8) (r : Fin 2048) :
    val_main_v8 (F := Ideal) x0 x1 (ix2 b r)
      = foldMax negInf fun k => ((foldMax negInf fun l => energy x0 b r l) - energy x0 b r k) * x1 (ix3 b r k) := by
  rw [val_main_v8_apply, val_main_v7_apply, val_main_cst_1_apply, v6_at]
  exact max_negInf _

theorem v10_at (b : Fin 8) (r j : Fin 2048) :
    val_main_v10 (F := Ideal) x0 x1 (ix3 b r j)
      = foldMax negInf fun k => ((foldMax negInf fun l => energy x0 b r l) - energy x0 b r k) * x1 (ix3 b r k) := by
  rw [val_main_v10_apply, val_main_v9_apply]
  have e : idx_main_v9 (idx_main_v10 (ix3 b r j)) = ix2 b r :=
    funext fun a => Fin.ext (by match a with | ⟨0, _⟩ => rfl | ⟨1, _⟩ => rfl)
  rw [e, v8_at]

/-- The unnormalised weight exp (s_j − m). -/
theorem v12_at (b : Fin 8) (r j : Fin 2048) :
    val_main_v12 (F := Ideal) x0 x1 (ix3 b r j)
      = Ideal.exp (((foldMax negInf fun k => energy x0 b r k) - energy x0 b r j) * x1 (ix3 b r j)
          - foldMax negInf fun k => ((foldMax negInf fun l => energy x0 b r l) - energy x0 b r k) * x1 (ix3 b r k)) := by
  rw [val_main_v12_apply, val_main_v11_apply, v5_at, v10_at]
  rfl

/-- The row's normaliser: the sum of the unnormalised weights (the zero word it starts from adds nothing). -/
theorem v15_at (b : Fin 8) (r j : Fin 2048) :
    val_main_v15 (F := Ideal) x0 x1 (ix3 b r j)
      = ∑ l : Fin 2048, Ideal.exp (((foldMax negInf fun k => energy x0 b r k) - energy x0 b r l) * x1 (ix3 b r l)
          - foldMax negInf fun k => ((foldMax negInf fun l => energy x0 b r l) - energy x0 b r k) * x1 (ix3 b r k)) := by
  rw [val_main_v15_apply, val_main_v14_apply]
  have e : idx_main_v14 (idx_main_v15 (ix3 b r j)) = ix2 b r :=
    funext fun a => Fin.ext (by match a with | ⟨0, _⟩ => rfl | ⟨1, _⟩ => rfl)
  rw [e, val_main_v13_apply, val_main_cst_2_apply]
  show Ideal.ofBits .f32 0x00000000#32 + _ = _
  rw [Ideal.ofBits_zero_f32, zero_add]
  refine Finset.sum_congr rfl fun l _ => ?_
  have e3 : idx_main_v13 (ix2 b r) l = ix3 b r l :=
    funext fun a => Fin.ext (by match a with | ⟨0, _⟩ => rfl | ⟨1, _⟩ => rfl | ⟨2, _⟩ => rfl)
  rw [e3, v12_at]

/-- The reference's result is the attention weights. -/
theorem result_eq : val_main_v16 (F := Ideal) x0 x1 = attention x0 x1 := by
  funext i
  obtain ⟨b, r, j, rfl⟩ : ∃ (b : Fin 8) (r j : Fin 2048), i = ix3 b r j := ⟨i 0, i 1, i 2, eq_ix3 i⟩
  rw [attention_apply, val_main_v16_apply, v12_at, v15_at]
  rfl

end Cert.ReferenceIdeal.RefValue

end
-- ==== Proof.lean ====
/- The kernel computes, per batch b and tile of 256 query rows, the inner products of the query rows with all
   2048 key rows of h[b], subtracts them from their row maximum, masks the difference by adj, and normalises
   exp (s − max s) by its row sum; the reference does the same on whole arrays with a batched product and host
   reductions.  On the extended reals both are one function of (h, adj) — `Attention.attention` — because they
   apply the same exact operations in the same order: a matrix product into a zero accumulator and the host's
   contraction are the same finite sum, both row maxima are folds of `max` from −∞ (the reference's extra
   maximum with −∞ is the identity), both row sums are the same finite sum (the reference's starts from the zero
   word), and both quotients are the extended reals' division.  No law that needs finite entries is used, so
   the precondition is never opened.

   The three frames: the two kernels' are the generated frame proofs; the reference's is its generated run with
   the result dropped.  The idealization rewrote nothing, so `preserves` is `True`.  For `algebraic`, the
   kernel's run ends with the result array at the attention weights of its arguments (the body's stored block
   read at an index, then the 64 blocks tiled over the array), the reference's run ends with its last stage,
   which is the attention weights of its arguments, and the arguments agree. -/
import proofs.«109564_j50732153700397_2_alg».proof.Defs
import proofs.«109564_j50732153700397_2_alg».proof.Proof.Gen.Kernel
import proofs.«109564_j50732153700397_2_alg».proof.Proof.Gen.Kernel.Skeleton
import proofs.«109564_j50732153700397_2_alg».proof.Proof.Gen.Kernel.Launch
import proofs.«109564_j50732153700397_2_alg».proof.Proof.Gen.Kernel.Points
import proofs.«109564_j50732153700397_2_alg».proof.Proof.Gen.Kernel.Frame
import proofs.«109564_j50732153700397_2_alg».proof.Proof.Gen.KernelIdeal
import proofs.«109564_j50732153700397_2_alg».proof.Proof.Gen.KernelIdeal.Skeleton
import proofs.«109564_j50732153700397_2_alg».proof.Proof.Gen.KernelIdeal.Launch
import proofs.«109564_j50732153700397_2_alg».proof.Proof.Gen.KernelIdeal.Points
import proofs.«109564_j50732153700397_2_alg».proof.Proof.Gen.KernelIdeal.Frame
import proofs.«109564_j50732153700397_2_alg».proof.Proof.Gen.ReferenceIdeal
import proofs.«109564_j50732153700397_2_alg».proof.Proof.Gen.Pre_finite_inputs
import proofs.«109564_j50732153700397_2_alg».proof.Proof.Gen.KernelIdeal.Value
import proofs.«109564_j50732153700397_2_alg».proof.Proof.Gen.ReferenceIdeal.Run
import proofs.«109564_j50732153700397_2_alg».proof.Proof.Gen.ReferenceIdeal.Read
import proofs.«109564_j50732153700397_2_alg».proof.Proof.BlockValue
import proofs.«109564_j50732153700397_2_alg».proof.Proof.RefAttention
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the attention weights of their arguments, and the arguments agree. -/
theorem algebraic : Cert.algebraic_KernelIdeal_ReferenceIdeal := by
  intro m ρ m' ρ' _ hagree
  refine ⟨fun c => Attention.attention (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
